-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S256x512 : Shape := ⟨2, ![256, 512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S131072x128 .f32) (main_arg1 : FVec F S131072x128 .f32) (main_arg2 : FVec F S131072x128 .f32) (main_arg3 : FVec F S256x512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S131072x128 : Shape := ⟨2, ![131072, 128]⟩
abbrev S256x512 : Shape := ⟨2, ![256, 512]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S256x512, .f32⟩
  | .hbm, ⟨4, _⟩ => ⟨S131072x128, .f32⟩
  | .hbm, ⟨5, _⟩ => ⟨S131072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S256x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S256x512_S128x512_0_0 : ∀ a, (![0, 0] : Fin 2 → Nat) a + S128x512.size a ≤ S256x512.size a
  h_S128x512 : 0 < S128x512.numel
  inb_S256x512_S128x512_128_0 : ∀ a, (![128, 0] : Fin 2 → Nat) a + S128x512.size a ≤ S256x512.size a
  bitsLt_bf16_f32 : FTy.bits .bf16 < FTy.bits .f32
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S131072x128.size a
  hwx0_4 : ∀ i : grid0.Coords, EltTy.bits .f32 = 32 ∨ (Rect.block (s := S131072x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S131072x128.size a
  hwx0_5 : ∀ i : grid0.Coords, EltTy.bits .f32 = 32 ∨ (Rect.block (s := S131072x128) S1024x128.size (cc0_transform_5 i) (hinb0_5 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x128 : Shape := ⟨2, ![131072, 128]⟩
abbrev S256x512 : Shape := ⟨2, ![256, 512]⟩
abbrev S131072x256 : Shape := ⟨2, ![131072, 256]⟩
abbrev S131072x512 : Shape := ⟨2, ![131072, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S256x512, .f32⟩
  | .hbm, ⟨4, _⟩ => ⟨S131072x256, .f32⟩
  | .hbm, ⟨5, _⟩ => ⟨S131072x512, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S131072x128, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S_, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072x128, .f32⟩
  | .hbm, ⟨30, _⟩ => ⟨S131072x128, .f32⟩
  | .hbm, ⟨31, _⟩ => ⟨S_, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x256_S256x512_S131072x512_1_0_0_1_n_n_wf : DotDims.WF S131072x256 S256x512 S131072x512 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf

class Facts : Prop extends Facts₀ where

variable [Facts]
-- ==== Proof.LstmCell.lean ====
/-
  One step of an LSTM cell on extended reals, entry by entry.

  The batch arrays x, h, c have 131072 rows of 128 entries; the weights w have 256 rows — the first 128 act on x, the last
  128 on h — and 512 columns, four gates of 128 columns each in the order input, forget, candidate, output.  For row n and
  column q the gates' pre-activation is

      z n q = Σ_{k < 128} x n k · w k q  +  Σ_{k < 128} h n k · w (128 + k) q,

  and with σ z = 1 / (1 + e^(−z)) the new cell state and the new hidden state are

      c' n j = σ (z n (128 + j)) · c n j + σ (z n j) · tanh (z n (256 + j)),
      h' n j = σ (z n (384 + j)) · tanh (c' n j).

  Two facts join the two programs to this one function.  A sum over the 256 rows of the weights is the sum over the first
  128 rows plus the sum over the last 128: addition of extended reals is commutative and associative, so this holds at the
  infinities too and no finiteness of the inputs is used.  And 1 / (1 + e^(−z)) with the literal one IS the logistic function
  on every extended real, by its definition.
-/
import Idealize.ShloMosaic.PureOps.Ideal
import Idealize.ShloMosaic.Lib.ValueIdx
import Idealize.ShloMosaic.Lib.IdealHost

noncomputable section

namespace Cert.LstmCell

open Idealize.ShloMosaic Idealize.ShloMosaic.ValueIdx
open scoped BigOperators

/-- A batch array: 131072 rows of 128 entries. -/
abbrev Batch := (⟨2, ![131072, 128]⟩ : Shape).Idx → EReal
/-- The weights: 256 rows of 512 entries. -/
abbrev Weights := (⟨2, ![256, 512]⟩ : Shape).Idx → EReal

/-- Row k of the weights' upper half (the rows acting on x). -/
abbrev upper (k : Fin 128) : Fin 256 := ⟨k.val, by have := k.isLt; omega⟩
/-- Row k of the weights' lower half (the rows acting on h). -/
abbrev lower (k : Fin 128) : Fin 256 := ⟨128 + k.val, by have := k.isLt; omega⟩

/-- Unit j's column in the input gate, the forget gate, the candidate and the output gate. -/
abbrev colI (j : Fin 128) : Fin 512 := ⟨j.val, by have := j.isLt; omega⟩
abbrev colF (j : Fin 128) : Fin 512 := ⟨128 + j.val, by have := j.isLt; omega⟩
abbrev colG (j : Fin 128) : Fin 512 := ⟨256 + j.val, by have := j.isLt; omega⟩
abbrev colO (j : Fin 128) : Fin 512 := ⟨384 + j.val, by have := j.isLt; omega⟩

/-- The gates' pre-activation at row n, column q: row n of x against the upper half of column q, plus row n of h against
    the lower half. -/
def preact (x h : Batch) (w : Weights) (n : Fin 131072) (q : Fin 512) : EReal :=
  (∑ k : Fin 128, x (ix2 n k) * w (ix2 (upper k) q)) + ∑ k : Fin 128, h (ix2 n k) * w (ix2 (lower k) q)

/-- The new cell state at row n, unit j. -/
def cellAt (x h c : Batch) (w : Weights) (n : Fin 131072) (j : Fin 128) : EReal :=
  Ideal.logistic (preact x h w n (colF j)) * c (ix2 n j)
    + Ideal.logistic (preact x h w n (colI j)) * Ideal.tanh (preact x h w n (colG j))

/-- The new hidden state at row n, unit j. -/
def hiddenAt (x h c : Batch) (w : Weights) (n : Fin 131072) (j : Fin 128) : EReal :=
  Ideal.logistic (preact x h w n (colO j)) * Ideal.tanh (cellAt x h c w n j)

/-- The new cell state as an array. -/
def cellNew (x h c : Batch) (w : Weights) : Batch := fun i => cellAt x h c w (i 0) (i 1)
/-- The new hidden state as an array. -/
def hiddenNew (x h c : Batch) (w : Weights) : Batch := fun i => hiddenAt x h c w (i 0) (i 1)

theorem cellNew_apply (x h c : Batch) (w : Weights) (n : Fin 131072) (j : Fin 128) :
    cellNew x h c w (ix2 n j) = cellAt x h c w n j := rfl
theorem hiddenNew_apply (x h c : Batch) (w : Weights) (n : Fin 131072) (j : Fin 128) :
    hiddenNew x h c w (ix2 n j) = hiddenAt x h c w n j := rfl

/-- The same formulas over ONE row of the batch: `xr` and `hr` are the row's 128 entries of x and of h, `cv` the row's
    entry of c at the unit.  A kernel working on a block of rows computes these for each row of its block. -/
def preactRow (xr hr : Fin 128 → EReal) (w : Weights) (q : Fin 512) : EReal :=
  (∑ k : Fin 128, xr k * w (ix2 (upper k) q)) + ∑ k : Fin 128, hr k * w (ix2 (lower k) q)

def cellRow (xr hr : Fin 128 → EReal) (cv : EReal) (w : Weights) (j : Fin 128) : EReal :=
  Ideal.logistic (preactRow xr hr w (colF j)) * cv
    + Ideal.logistic (preactRow xr hr w (colI j)) * Ideal.tanh (preactRow xr hr w (colG j))

def hiddenRow (xr hr : Fin 128 → EReal) (cv : EReal) (w : Weights) (j : Fin 128) : EReal :=
  Ideal.logistic (preactRow xr hr w (colO j)) * Ideal.tanh (cellRow xr hr cv w j)

theorem cellAt_eq_row (x h c : Batch) (w : Weights) (n : Fin 131072) (j : Fin 128) :
    cellAt x h c w n j = cellRow (fun k => x (ix2 n k)) (fun k => h (ix2 n k)) (c (ix2 n j)) w j := rfl
theorem hiddenAt_eq_row (x h c : Batch) (w : Weights) (n : Fin 131072) (j : Fin 128) :
    hiddenAt x h c w n j = hiddenRow (fun k => x (ix2 n k)) (fun k => h (ix2 n k)) (c (ix2 n j)) w j := rfl

/-- A sum over the 256 rows of the weights is the sum over the upper 128 rows plus the sum over the lower 128 rows, in
    any commutative additive monoid. -/
theorem sum_rows {M : Type*} [AddCommMonoid M] (f : Fin 256 → M) :
    ∑ k : Fin 256, f k = (∑ k : Fin 128, f (upper k)) + ∑ k : Fin 128, f (lower k) :=
  Fin.sum_univ_add (a := 128) (b := 128) f

/-- One over one plus e^(−z), the ones being the literal 1.0, is the logistic function at z, on every extended real. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]
  rfl

end Cert.LstmCell

end
-- ==== Proof.KernelCell.lean ====
/-
  What the kernel's body leaves in its two output blocks, entry by entry.

  At a grid point the body holds a block of 1024 rows of x, of h and of c, and the whole weights.  It multiplies the x rows
  by the upper 128 rows of the weights and the h rows by the lower 128 rows, each product into a zero accumulator, and adds
  the two: entry (r, q) of the sum is Σ_k x r k · w k q + Σ_k h r k · w (128 + k) q, the pre-activation of row r (changing
  the float format of the factors is the identity on extended reals).  The four gates are the four blocks of 128 columns of
  that sum, and the two stores write σ(f)·c + σ(i)·tanh(g) and σ(o)·tanh of it.  So entry (r, j) of each output block is the
  row formula of LstmCell.lean at row r of the three input blocks.
-/
import proofs.«125564_j55697135894882_1_alg».proof.Proof.Gen.KernelIdeal.Value
import proofs.«125564_j55697135894882_1_alg».proof.Proof.LstmCell
import Idealize.ShloMosaic.Lib.ValueIdx
import Idealize.ShloMosaic.Lib.Pipeline.Value
import Idealize.ShloMosaic.PureOps.Ideal.Laws

noncomputable section

namespace Cert.KernelIdeal.Cell

open Cert.KernelIdeal Cert.KernelIdeal.Gen Idealize.ShloMosaic Idealize.ShloMosaic.ValueIdx Cert.LstmCell
open scoped BigOperators

/-! ## One matrix product at an entry -/

/-- The product's left factor at output entry i is read on i's row, -/
theorem lhs_row (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
/-- at the contracted column; -/
theorem lhs_contr (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
/-- the right factor at the contracted row, -/
theorem rhs_contr (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
/-- on i's column. -/
theorem rhs_col (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- A [1024,128] × [128,512] product into a zero accumulator, at entry (r, q): the sum over the 128 contracted
    indices of the products. -/
theorem matmul_entry {φ₁ φ₂ : FTy} (A : FVec Ideal S1024x128 φ₁) (B : FVec Ideal S128x512 φ₂) (r : Fin 1024) (q : Fin 512) :
    matmul dot_S1024x128_S128x512_S1024x512_1_0_0_1_n_n none A B (constant (F := Ideal) S1024x512 .f32 0x00000000#32) (ix2 r q)
      = ∑ k : Fin 128, A (ix2 r k) * B (ix2 k q) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r q) ((contrEquiv1 dot_S1024x128_S128x512_S1024x512_1_0_0_1_n_n 128 rfl rfl).symm k) = ix2 r k := funext fun a => Fin.ext (by
    match a with
    | ⟨0, _⟩ => exact lhs_row _ _
    | ⟨1, _⟩ => exact (lhs_contr _ _).trans hk)
  have er : dot_S1024x128_S128x512_S1024x512_1_0_0_1_n_n.rhsIdx (ix2 r q) ((contrEquiv1 dot_S1024x128_S128x512_S1024x512_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The sum of the two products at entry (r, q). -/
theorem preact_block (P0 P1 : Vec Ideal S1024x128 .f32) (P2 P3 : Vec Ideal S128x512 .f32) (r : Fin 1024) (q : Fin 512) :
    k0_pay1 (F := Ideal) P0 P1 P2 P3 (ix2 r q)
      = (∑ k : Fin 128, P0 (ix2 r k) * P2 (ix2 k q)) + ∑ k : Fin 128, P1 (ix2 r k) * P3 (ix2 k q) := by
  unfold k0_pay1
  exact congrArg₂ (· + ·) (matmul_entry _ _ r q) (matmul_entry _ _ r q)

/-! ## The loads -/

/-- A load of a whole [1024,128] block reads entry (r, j) at (r, j); -/
theorem whole_idx (r : Fin 1024) (j : Fin 128) : r0_0.idx (ix2 r j) = ix2 r j := by
  funext a; apply Fin.ext
  match a with
  | ⟨0, _⟩ => show 0 + 1 * r.val = r.val; omega
  | ⟨1, _⟩ => show 0 + 1 * j.val = j.val; omega

/-- the first load of the weights reads their upper 128 rows, -/
theorem upper_idx (k : Fin 128) (q : Fin 512) : r0_1.idx (ix2 k q) = ix2 (upper k) q := by
  funext a; apply Fin.ext
  match a with
  | ⟨0, _⟩ => show 0 + 1 * k.val = k.val; omega
  | ⟨1, _⟩ => show 0 + 1 * q.val = q.val; omega

/-- the second their lower 128 rows. -/
theorem lower_idx (k : Fin 128) (q : Fin 512) : r0_2.idx (ix2 k q) = ix2 (lower k) q := by
  funext a; apply Fin.ext
  match a with
  | ⟨0, _⟩ => show 128 + 1 * k.val = 128 + k.val; omega
  | ⟨1, _⟩ => show 0 + 1 * q.val = q.val; omega

/-! ## The gates' columns -/

theorem cell_forget_col (r : Fin 1024) (j : Fin 128) : Value.ix5_0 (ix2 r j) = ix2 r (colF j) :=
  funext fun a => Fin.ext (by match a with | ⟨0, _⟩ => rfl | ⟨1, _⟩ => show j.val + 128 = 128 + j.val; omega)
theorem cell_state_entry (r : Fin 1024) (j : Fin 128) : Value.ix5_1 (ix2 r j) = ix2 r j :=
  funext fun a => Fin.ext (by match a with | ⟨0, _⟩ => rfl | ⟨1, _⟩ => rfl)
theorem cell_input_col (r : Fin 1024) (j : Fin 128) : Value.ix5_2 (ix2 r j) = ix2 r (colI j) :=
  funext fun a => Fin.ext (by match a with | ⟨0, _⟩ => rfl | ⟨1, _⟩ => rfl)
theorem cell_candidate_col (r : Fin 1024) (j : Fin 128) : Value.ix5_3 (ix2 r j) = ix2 r (colG j) :=
  funext fun a => Fin.ext (by match a with | ⟨0, _⟩ => rfl | ⟨1, _⟩ => show j.val + 256 = 256 + j.val; omega)

theorem hidden_output_col (r : Fin 1024) (j : Fin 128) : Value.ix4_0 (ix2 r j) = ix2 r (colO j) :=
  funext fun a => Fin.ext (by match a with | ⟨0, _⟩ => rfl | ⟨1, _⟩ => show j.val + 384 = 384 + j.val; omega)
theorem hidden_forget_col (r : Fin 1024) (j : Fin 128) : Value.ix4_1 (ix2 r j) = ix2 r (colF j) :=
  funext fun a => Fin.ext (by match a with | ⟨0, _⟩ => rfl | ⟨1, _⟩ => show j.val + 128 = 128 + j.val; omega)
theorem hidden_state_entry (r : Fin 1024) (j : Fin 128) : Value.ix4_2 (ix2 r j) = ix2 r j :=
  funext fun a => Fin.ext (by match a with | ⟨0, _⟩ => rfl | ⟨1, _⟩ => rfl)
theorem hidden_input_col (r : Fin 1024) (j : Fin 128) : Value.ix4_3 (ix2 r j) = ix2 r (colI j) :=
  funext fun a => Fin.ext (by match a with | ⟨0, _⟩ => rfl | ⟨1, _⟩ => rfl)
theorem hidden_candidate_col (r : Fin 1024) (j : Fin 128) : Value.ix4_4 (ix2 r j) = ix2 r (colG j) :=
  funext fun a => Fin.ext (by match a with | ⟨0, _⟩ => rfl | ⟨1, _⟩ => show j.val + 256 = 256 + j.val; omega)

/-! ## The two output blocks -/

/-- Entry (r, j) of the block the body leaves for the new cell state: the row formula at row r of the input blocks. -/
theorem cell_block (x0 x1 x2 : Vec Ideal S1024x128 .f32) (x3 : Vec Ideal S256x512 .f32) (r : Fin 1024) (j : Fin 128) :
    out0_5 (F := Ideal) x0 x1 x2 x3 (ix2 r j)
      = cellRow (fun k => x0 (ix2 r k)) (fun k => x1 (ix2 r k)) (x2 (ix2 r j)) x3 j := by
  unfold out0_5
  rw [Value.canon5_eq]
  dsimp only [Value.E5]
  simp only [cell_forget_col, cell_state_entry, cell_input_col, cell_candidate_col, preact_block]
  simp only [View.ld, whole_idx, upper_idx, lower_idx]
  rfl

/-- Entry (r, j) of the block the body leaves for the new hidden state. -/
theorem hidden_block (x0 x1 x2 : Vec Ideal S1024x128 .f32) (x3 : Vec Ideal S256x512 .f32) (r : Fin 1024) (j : Fin 128) :
    out0_4 (F := Ideal) x0 x1 x2 x3 (ix2 r j)
      = hiddenRow (fun k => x0 (ix2 r k)) (fun k => x1 (ix2 r k)) (x2 (ix2 r j)) x3 j := by
  unfold out0_4
  rw [Value.canon4_eq]
  dsimp only [Value.E4]
  simp only [hidden_output_col, hidden_forget_col, hidden_state_entry, hidden_input_col, hidden_candidate_col, preact_block]
  simp only [View.ld, whole_idx, upper_idx, lower_idx]
  rfl

end Cert.KernelIdeal.Cell

end
-- ==== Proof.KernelArrays.lean ====
/-
  From the blocks to the arrays: what the kernel's run leaves in its two result arrays.

  The grid has 128 points.  At point t each batch window (x, h, c, and the two results) is at block row t — rows 1024·t to
  1024·t + 1023 of its array — and the weights' window is the whole weights at every point.  So row r of a block at point t
  is row 1024·t + r of the array, the block the body leaves at point t is rows 1024·t … of the LSTM cell's arrays, and
  since row n lies in the block of point n / 1024 the 128 blocks fill each result array.
-/
import proofs.«125564_j55697135894882_1_alg».proof.Proof.KernelCell

noncomputable section

namespace Cert.KernelIdeal.Cell

open Cert.KernelIdeal Cert.KernelIdeal.Gen Idealize.ShloMosaic Idealize.ShloMosaic.TcCoe Idealize.SL.Sem
open Idealize.ShloMosaic.ValueIdx Cert.LstmCell
open Idealize.ShloMosaic.Pipeline (Dat)

variable (m : (ℓ : Loc nD τ sig) → Buf (Elt Ideal) ℓ) (ρ : Dev nD → PrngReg)

/-- Where each window is at point t: the batch windows at block row t, the weights' window at the one block there is. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row r of block row t is row 1024·t + r of the array. -/
abbrev rowOf (t : Fin cfg0.N) (r : Fin 1024) : Fin 131072 :=
  ⟨1024 * t.val + r.val, by have ht : t.val < 128 := lt_of_lt_of_eq t.isLt N_0; have hr := r.isLt; omega⟩

/-! ## The input blocks -/

theorem x_block (c : Dev nD) (t : Fin cfg0.N) (r : Fin 1024) (k : Fin 128) :
    (iblk m c 0 t : Vec Ideal S1024x128 .f32) (ix2 r k) = (V m c main_arg0 : S131072x128.Idx → Elt Ideal .f32) (ix2 (rowOf t r) k) := by
  obtain ⟨e0, e1, -⟩ := block_index t
  unfold iblk
  rw [View.read_apply]
  show V m c main_arg0 _ = V m c main_arg0 _
  congr 1; funext a; apply Fin.ext
  match a with
  | ⟨0, _⟩ => show win0_0.index t (0 : Fin 2) * 1024 + 1 * r.val = 1024 * t.val + r.val; rw [e0]; omega
  | ⟨1, _⟩ => show win0_0.index t (1 : Fin 2) * 128 + 1 * k.val = k.val; rw [e1]; omega

theorem h_block (c : Dev nD) (t : Fin cfg0.N) (r : Fin 1024) (k : Fin 128) :
    (iblk m c 1 t : Vec Ideal S1024x128 .f32) (ix2 r k) = (V m c main_arg1 : S131072x128.Idx → Elt Ideal .f32) (ix2 (rowOf t r) k) := by
  obtain ⟨-, -, e0, e1, -⟩ := block_index t
  unfold iblk
  rw [View.read_apply]
  show V m c main_arg1 _ = V m c main_arg1 _
  congr 1; funext a; apply Fin.ext
  match a with
  | ⟨0, _⟩ => show win0_1.index t (0 : Fin 2) * 1024 + 1 * r.val = 1024 * t.val + r.val; rw [e0]; omega
  | ⟨1, _⟩ => show win0_1.index t (1 : Fin 2) * 128 + 1 * k.val = k.val; rw [e1]; omega

theorem c_block (c : Dev nD) (t : Fin cfg0.N) (r : Fin 1024) (k : Fin 128) :
    (iblk m c 2 t : Vec Ideal S1024x128 .f32) (ix2 r k) = (V m c main_arg2 : S131072x128.Idx → Elt Ideal .f32) (ix2 (rowOf t r) k) := by
  obtain ⟨-, -, -, -, e0, e1, -⟩ := block_index t
  unfold iblk
  rw [View.read_apply]
  show V m c main_arg2 _ = V m c main_arg2 _
  congr 1; funext a; apply Fin.ext
  match a with
  | ⟨0, _⟩ => show win0_2.index t (0 : Fin 2) * 1024 + 1 * r.val = 1024 * t.val + r.val; rw [e0]; omega
  | ⟨1, _⟩ => show win0_2.index t (1 : Fin 2) * 128 + 1 * k.val = k.val; rw [e1]; omega

/-- The weights' block is the weights. -/
theorem w_block (c : Dev nD) (t : Fin cfg0.N) :
    (iblk m c 3 t : Vec Ideal S256x512 .f32) = (V m c main_arg3 : S256x512.Idx → Elt Ideal .f32) := by
  obtain ⟨-, -, -, -, -, -, e0, e1, -⟩ := block_index t
  funext y
  unfold iblk
  rw [View.read_apply]
  show V m c main_arg3 _ = V m c main_arg3 y
  congr 1; funext a; apply Fin.ext
  match a with
  | ⟨0, _⟩ => show win0_3.index t (0 : Fin 2) * 256 + 1 * (y 0).val = (y 0).val; rw [e0]; omega
  | ⟨1, _⟩ => show win0_3.index t (1 : Fin 2) * 512 + 1 * (y 1).val = (y 1).val; rw [e1]; omega

/-! ## The new cell state -/

/-- Entry (r, j) of the cell-state window's block at point t is entry (1024·t + r, j) of its array. -/
theorem cell_emb (t : Fin cfg0.N) (r : Fin 1024) (j : Fin 128) :
    ((cfg0.win 5).blk t).view.emb (ix2 r j) = ix2 (rowOf t r) j := by
  obtain ⟨-, -, -, -, -, -, -, -, -, -, e0, e1⟩ := block_index t
  funext a; apply Fin.ext
  match a with
  | ⟨0, _⟩ => show win0_5.index t (0 : Fin 2) * 1024 + 1 * r.val = 1024 * t.val + r.val; rw [e0]; omega
  | ⟨1, _⟩ => show win0_5.index t (1 : Fin 2) * 128 + 1 * j.val = j.val; rw [e1]; omega

/-- What point t writes back to the cell-state array is block row t of the LSTM cell's new cell state. -/
theorem cell_flushed (c : Dev nD) (t : Fin cfg0.N) :
    (dats m 0 c).flushed 5 t = ((cfg0.win 5).blk t).view.read (Elt Ideal) (cellNew (V m c main_arg0) (V m c main_arg1) (V m c main_arg2) (V m c main_arg3)) := by
  rw [Value.flushed5]
  funext y
  obtain ⟨r, j, rfl⟩ : ∃ (r : Fin 1024) (j : Fin 128), y = ix2 r j := ⟨y 0, y 1, eq_ix2 y⟩
  show out0_5 (iblk m c 0 t) (iblk m c 1 t) (iblk m c 2 t) (iblk m c 3 t) (ix2 r j)
    = cellNew (V m c main_arg0) (V m c main_arg1) (V m c main_arg2) (V m c main_arg3) (((cfg0.win 5).blk t).view.emb (ix2 r j))
  refine (cell_block (iblk m c 0 t) (iblk m c 1 t) (iblk m c 2 t) (iblk m c 3 t) r j).trans ?_
  rw [cell_emb, cellNew_apply, cellAt_eq_row, w_block]
  congr 1
  · funext k; exact x_block m c t r k
  · funext k; exact h_block m c t r k
  · exact c_block m c t r j

/-- An index is in point t's block of the cell-state array iff each coordinate is in the block's range. -/
theorem mem_cell_block (t : Fin cfg0.N) (i : S131072x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0_1).slice (win0_5.rect t)).set ↔ _
  rw [View.set_slice_whole, Rect.mem_set_unit]
  exact Iff.rfl

/-- Row n of the cell-state array is in the block of point n / 1024. -/
theorem cell_cover (i : S131072x128.Idx) : ∃ t : Fin cfg0.N, (cfg0.win 5).flush t = true ∧ i ∈ ((cfg0.win 5).blk t).view.set := by
  have hi0 : (i 0).val < 131072 := (i 0).isLt
  have hi1 : (i 1).val < 128 := (i 1).isLt
  obtain ⟨t, ht⟩ : ∃ t : Fin cfg0.N, t.val = (i 0).val / 1024 :=
    ⟨⟨(i 0).val / 1024, lt_of_lt_of_eq (by omega : (i 0).val / 1024 < 128) N_0.symm⟩, rfl⟩
  obtain ⟨-, -, -, -, -, -, -, -, -, -, e0, e1⟩ := block_index t
  refine ⟨t, flush0_5 t, ?_⟩
  rw [mem_cell_block]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 128 ≤ (i 1).val ∧ (i 1).val < win0_5.index t (1 : Fin 2) * 128 + 128; rw [e1]; omega

/-- The cell-state array after the run. -/
theorem cell_final (c : Dev nD) : (dats m 0 c).arrAt 5 cfg0.N = cellNew (V m c main_arg0) (V m c main_arg1) (V m c main_arg2) (V m c main_arg3) :=
  (dats m 0 c).arrAt_eq_of_cover 5 _ (fun t _ => cell_flushed m c t) cell_cover

/-! ## The new hidden state -/

theorem hidden_emb (t : Fin cfg0.N) (r : Fin 1024) (j : Fin 128) :
    ((cfg0.win 4).blk t).view.emb (ix2 r j) = ix2 (rowOf t r) j := by
  obtain ⟨-, -, -, -, -, -, -, -, e0, e1, -⟩ := block_index t
  funext a; apply Fin.ext
  match a with
  | ⟨0, _⟩ => show win0_4.index t (0 : Fin 2) * 1024 + 1 * r.val = 1024 * t.val + r.val; rw [e0]; omega
  | ⟨1, _⟩ => show win0_4.index t (1 : Fin 2) * 128 + 1 * j.val = j.val; rw [e1]; omega

/-- What point t writes back to the hidden-state array is block row t of the LSTM cell's new hidden state. -/
theorem hidden_flushed (c : Dev nD) (t : Fin cfg0.N) :
    (dats m 0 c).flushed 4 t = ((cfg0.win 4).blk t).view.read (Elt Ideal) (hiddenNew (V m c main_arg0) (V m c main_arg1) (V m c main_arg2) (V m c main_arg3)) := by
  rw [Value.flushed4]
  funext y
  obtain ⟨r, j, rfl⟩ : ∃ (r : Fin 1024) (j : Fin 128), y = ix2 r j := ⟨y 0, y 1, eq_ix2 y⟩
  show out0_4 (iblk m c 0 t) (iblk m c 1 t) (iblk m c 2 t) (iblk m c 3 t) (ix2 r j)
    = hiddenNew (V m c main_arg0) (V m c main_arg1) (V m c main_arg2) (V m c main_arg3) (((cfg0.win 4).blk t).view.emb (ix2 r j))
  refine (hidden_block (iblk m c 0 t) (iblk m c 1 t) (iblk m c 2 t) (iblk m c 3 t) r j).trans ?_
  rw [hidden_emb, hiddenNew_apply, hiddenAt_eq_row, w_block]
  congr 1
  · funext k; exact x_block m c t r k
  · funext k; exact h_block m c t r k
  · exact c_block m c t r j

theorem mem_hidden_block (t : Fin cfg0.N) (i : S131072x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0_0).slice (win0_4.rect t)).set ↔ _
  rw [View.set_slice_whole, Rect.mem_set_unit]
  exact Iff.rfl

theorem hidden_cover (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  obtain ⟨t, ht⟩ : ∃ t : Fin cfg0.N, t.val = (i 0).val / 1024 :=
    ⟨⟨(i 0).val / 1024, lt_of_lt_of_eq (by omega : (i 0).val / 1024 < 128) N_0.symm⟩, rfl⟩
  obtain ⟨-, -, -, -, -, -, -, -, e0, e1, -⟩ := block_index t
  refine ⟨t, flush0_4 t, ?_⟩
  rw [mem_hidden_block]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 128 ≤ (i 1).val ∧ (i 1).val < win0_4.index t (1 : Fin 2) * 128 + 128; rw [e1]; omega

/-- The hidden-state array after the run. -/
theorem hidden_final (c : Dev nD) : (dats m 0 c).arrAt 4 cfg0.N = hiddenNew (V m c main_arg0) (V m c main_arg1) (V m c main_arg2) (V m c main_arg3) :=
  (dats m 0 c).arrAt_eq_of_cover 4 _ (fun t _ => hidden_flushed m c t) hidden_cover

/-! ## The run -/

/-- Every weakly fair execution of the kernel's program terminates with the first result array at the LSTM cell's new
    hidden state and the second at its new cell state, of the argument arrays as launched, and the arguments unchanged. -/
theorem run : θ_run defs (onTc (τ := τ) (main (F := Ideal))) ⟨m, fun _ => 0, ρ⟩ fun r => ∀ c : Dev nD,
      r.2.mem ((c : Thread nD τ).loc main_v0_0) = hiddenNew (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = cellNew (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (hidden_final m c), (h c).2.1.trans (cell_final m c), (h c).2.2⟩)
    (Value.run_blocks m ρ)

end Cert.KernelIdeal.Cell

end
-- ==== Proof.ReferenceCell.lean ====
/-
  The host program computes the LSTM cell of LstmCell.lean.

  It joins x and h side by side into one array of 256 columns and multiplies by the weights: entry (n, q) of the product is
  the sum over the 256 columns k of [x | h] n k · w k q.  A column k < 128 of the joined array is column k of x, a column
  128 + k is column k of h, so by splitting the sum at 128 the entry is the pre-activation `preact x h w n q`.  The four
  gates are the four blocks of 128 columns of that product; each sigmoid is spelt 1 / (1 + e^(−z)), which is the logistic
  function; the rest is the same products and sums, entry by entry.
-/
import proofs.«125564_j55697135894882_1_alg».proof.Proof.Gen.ReferenceIdeal.Read
import proofs.«125564_j55697135894882_1_alg».proof.Proof.LstmCell

noncomputable section

namespace Cert.ReferenceIdeal.Cell

open Cert.ReferenceIdeal Cert.ReferenceIdeal.Gen Cert.ReferenceIdeal.Read Idealize.ShloMosaic Idealize.ShloMosaic.ValueIdx Cert.LstmCell
open scoped BigOperators

variable (x h c : (⟨S131072x128, .f32⟩ : BufTy).Contents (Elt Ideal)) (w : (⟨S256x512, .f32⟩ : BufTy).Contents (Elt Ideal))

/-- Column k < 128 of [x | h] is column k of x. -/
theorem joined_upper (n : Fin 131072) (k : Fin 128) : val_main_v0 (F := Ideal) x h (ix2 n (upper k)) = x (ix2 n k) := by
  unfold val_main_v0
  exact concatenate_pair_apply_left _ x h concatenates_S131072x128_S131072x128_S131072x256_d1 (ix2 n (upper k)) rfl (ix2 n k)
    (fun b => match b with | ⟨0, _⟩ => rfl | ⟨1, _⟩ => rfl)

/-- Column 128 + k of [x | h] is column k of h. -/
theorem joined_lower (n : Fin 131072) (k : Fin 128) : val_main_v0 (F := Ideal) x h (ix2 n (lower k)) = h (ix2 n k) := by
  unfold val_main_v0
  exact concatenate_pair_apply_right _ x h concatenates_S131072x128_S131072x128_S131072x256_d1 (ix2 n (lower k)) rfl rfl (ix2 n k)
    (fun b hb => match b, hb with | ⟨0, _⟩, _ => rfl | ⟨1, _⟩, hb => (hb (Fin.ext rfl)).elim)
    (by show k.val + 128 = 128 + k.val; omega)

/-- The product's left factor at output entry (n, q) and column k is the joined array at (n, k); -/
theorem left_index (n : Fin 131072) (q : Fin 512) (k : Fin 256) : lidx_main_v1 (ix2 n q) k = ix2 n k :=
  funext fun a => match a with | ⟨0, _⟩ => rfl | ⟨1, _⟩ => rfl
/-- its right factor is the weights at (k, q). -/
theorem right_index (n : Fin 131072) (q : Fin 512) (k : Fin 256) : ridx_main_v1 (ix2 n q) k = ix2 k q :=
  funext fun a => match a with | ⟨0, _⟩ => rfl | ⟨1, _⟩ => rfl

/-- Entry (n, q) of [x | h] · w is the pre-activation: the sum over 256 columns split at 128. -/
theorem product_eq (n : Fin 131072) (q : Fin 512) : val_main_v1 (F := Ideal) x h w (ix2 n q) = preact x h w n q := by
  rw [val_main_v1_apply, sum_rows]
  unfold preact
  simp only [left_index, right_index, joined_upper, joined_lower]

/-- The four gates' blocks of columns. -/
theorem input_index (n : Fin 131072) (j : Fin 128) : idx_main_v2 (ix2 n j) = ix2 n (colI j) :=
  funext fun a => match a with | ⟨0, _⟩ => rfl | ⟨1, _⟩ => rfl
theorem forget_index (n : Fin 131072) (j : Fin 128) : idx_main_v3 (ix2 n j) = ix2 n (colF j) :=
  funext fun a => match a with | ⟨0, _⟩ => rfl | ⟨1, _⟩ => rfl
theorem candidate_index (n : Fin 131072) (j : Fin 128) : idx_main_v4 (ix2 n j) = ix2 n (colG j) :=
  funext fun a => match a with | ⟨0, _⟩ => rfl | ⟨1, _⟩ => rfl
theorem output_index (n : Fin 131072) (j : Fin 128) : idx_main_v5 (ix2 n j) = ix2 n (colO j) :=
  funext fun a => match a with | ⟨0, _⟩ => rfl | ⟨1, _⟩ => rfl

/-- The host's new cell state at (n, j). -/
theorem cell_eq (n : Fin 131072) (j : Fin 128) : val_main_v27 (F := Ideal) x h c w (ix2 n j) = cellAt x h c w n j := by
  simp only [val_main_v27_apply, val_main_v25_apply, val_main_v26_apply, val_main_v17_apply, val_main_v16_apply,
    val_main_v15_apply, val_main_v14_apply, val_main_v13_apply, val_main_v12_apply, val_main_v3_apply, val_main_v11_apply,
    val_main_v10_apply, val_main_v9_apply, val_main_v8_apply, val_main_v7_apply, val_main_v6_apply, val_main_v2_apply,
    val_main_v24_apply, val_main_v4_apply, val_main_cst_apply, val_main_cst_0_apply, val_main_cst_1_apply, val_main_cst_2_apply,
    input_index, forget_index, candidate_index, product_eq,
    Ideal.hostDivf_def, Ideal.hostUnary_exp_def, Ideal.hostNegf_def, Ideal.negf_def, Ideal.hostUnary_tanh_def,
    Ideal.addf_def, Ideal.mulf_def, Ideal.ofBits_def, one_div_one_add_exp_neg]
  rfl

/-- The host's new hidden state at (n, j). -/
theorem hidden_eq (n : Fin 131072) (j : Fin 128) : val_main_v29 (F := Ideal) x h c w (ix2 n j) = hiddenAt x h c w n j := by
  simp only [val_main_v29_apply, val_main_v28_apply, val_main_v23_apply, val_main_v22_apply, val_main_v21_apply,
    val_main_v20_apply, val_main_v19_apply, val_main_v18_apply, val_main_v5_apply, val_main_cst_3_apply, val_main_cst_4_apply,
    cell_eq, output_index, product_eq,
    Ideal.hostDivf_def, Ideal.hostUnary_exp_def, Ideal.hostNegf_def, Ideal.negf_def, Ideal.hostUnary_tanh_def,
    Ideal.addf_def, Ideal.mulf_def, Ideal.ofBits_def, one_div_one_add_exp_neg]
  rfl

/-- The host's two results as arrays. -/
theorem cell_array : val_main_v27 (F := Ideal) x h c w = cellNew x h c w := by
  funext i
  obtain ⟨n, j, rfl⟩ : ∃ (n : Fin 131072) (j : Fin 128), i = ix2 n j := ⟨i 0, i 1, eq_ix2 i⟩
  exact cell_eq x h c w n j

theorem hidden_array : val_main_v29 (F := Ideal) x h c w = hiddenNew x h c w := by
  funext i
  obtain ⟨n, j, rfl⟩ : ∃ (n : Fin 131072) (j : Fin 128), i = ix2 n j := ⟨i 0, i 1, eq_ix2 i⟩
  exact hidden_eq x h c w n j

end Cert.ReferenceIdeal.Cell

end
-- ==== Proof.lean ====
/-
  A fused LSTM cell against its plain definition, on extended reals.

  Inputs: x, h, c with 131072 rows of 128 entries and the weights w with 256 rows of 512 entries.  With
      z n q = Σ_{k<128} x n k · w k q + Σ_{k<128} h n k · w (128 + k) q       and       σ z = 1 / (1 + e^(−z)),
  both programs return
      c' n j = σ (z n (128 + j)) · c n j + σ (z n j) · tanh (z n (256 + j))     and     h' n j = σ (z n (384 + j)) · tanh (c' n j)
  (Proof/LstmCell.lean).

  The kernel takes the batch 1024 rows at a time.  At each of its 128 grid points it multiplies its rows of x by the upper
  half of w and its rows of h by the lower half, adds the two products, and applies the gates; its blocks are rows
  1024·t … 1024·t + 1023 of the results and together fill them (Proof/KernelCell.lean, Proof/KernelArrays.lean).  Its change
  of float format before the products is the identity on extended reals.

  The reference joins x and h into one array of 256 columns and multiplies once by w; the sum over 256 columns splits at 128
  into the kernel's two sums, and its sigmoid, spelt 1 / (1 + e^(−z)), is the logistic function (Proof/ReferenceCell.lean).

  The one law used is that a finite sum of extended reals may be split in two, which holds at the infinities as well, so the
  finiteness of the inputs is not used.  The kernel's idealization rewrote no operation, so there is nothing to preserve.
-/
import proofs.«125564_j55697135894882_1_alg».proof.Defs
import proofs.«125564_j55697135894882_1_alg».proof.Proof.Gen.Kernel
import proofs.«125564_j55697135894882_1_alg».proof.Proof.Gen.Kernel.Skeleton
import proofs.«125564_j55697135894882_1_alg».proof.Proof.Gen.Kernel.Launch
import proofs.«125564_j55697135894882_1_alg».proof.Proof.Gen.Kernel.Points
import proofs.«125564_j55697135894882_1_alg».proof.Proof.Gen.Kernel.Frame
import proofs.«125564_j55697135894882_1_alg».proof.Proof.Gen.KernelIdeal
import proofs.«125564_j55697135894882_1_alg».proof.Proof.Gen.KernelIdeal.Skeleton
import proofs.«125564_j55697135894882_1_alg».proof.Proof.Gen.KernelIdeal.Launch
import proofs.«125564_j55697135894882_1_alg».proof.Proof.Gen.KernelIdeal.Points
import proofs.«125564_j55697135894882_1_alg».proof.Proof.Gen.KernelIdeal.Frame
import proofs.«125564_j55697135894882_1_alg».proof.Proof.Gen.ReferenceIdeal
import proofs.«125564_j55697135894882_1_alg».proof.Proof.Gen.Pre_finite_inputs
import proofs.«125564_j55697135894882_1_alg».proof.Proof.Gen.KernelIdeal.Value
import proofs.«125564_j55697135894882_1_alg».proof.Proof.Gen.ReferenceIdeal.Run
import proofs.«125564_j55697135894882_1_alg».proof.Proof.Gen.ReferenceIdeal.Read
import proofs.«125564_j55697135894882_1_alg».proof.Proof.LstmCell
import proofs.«125564_j55697135894882_1_alg».proof.Proof.KernelCell
import proofs.«125564_j55697135894882_1_alg».proof.Proof.KernelArrays
import proofs.«125564_j55697135894882_1_alg».proof.Proof.ReferenceCell
import Idealize.ShloMosaic.Adequacy
import Idealize.ShloMosaic.Init

noncomputable section

namespace Cert.Proof

open Idealize.ShloMosaic Idealize.ShloMosaic.TcCoe Idealize.SL.Sem Cert.LstmCell

/-- The kernel as printed runs to the end without a fault and leaves its arguments as they were. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten on the way to extended reals. -/
theorem preserves : Cert.preserves_Kernel_KernelIdeal := trivial

/-- From memories agreeing on x, h, c and w, both programs end with the LSTM cell's new hidden state in their first
    result and its new cell state in their second. -/
theorem algebraic : Cert.algebraic_KernelIdeal_ReferenceIdeal := by
  intro m ρ m' ρ' _ hagree
  refine ⟨fun c => hiddenNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => cellNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, Cert.ReferenceIdeal.Cell.hidden_array,
      (hagree c).1, (hagree c).2.1, (hagree c).2.2.1, (hagree c).2.2.2]
  · rw [Cert.ReferenceIdeal.Read.val_main_v27_eq, Cert.ReferenceIdeal.Cell.cell_array,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
